-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x384x1248x7 : Shape := ⟨4, ![4, 384, 1248, 7]⟩
abbrev S_ : Shape := ⟨0, ![]⟩

class Facts : Prop where
  bcast_S_S4x384x1248x7 : S_.BroadcastsInDim S4x384x1248x7 (![] : Fin 0 → Fin S4x384x1248x7.rank)
  reducesTo_S4x384x1248x7_S_d0_1_2_3 : S4x384x1248x7.ReducesTo [0, 1, 2, 3] S_
  h_S_ : 0 < S_.numel

variable [Facts]

def fn {F : FTy → Type} [FloatOps F] (main_arg0 : FVec F S4x384x1248x7 .f32) : IVec S_ 1 :=
  let main_v0 : FVec F S4x384x1248x7 .f32 := Host.absf main_arg0
  let main_cst : FVec F S_ .f32 := constant S_ .f32 0x7F800000#32
  let main_v1 : FVec F S4x384x1248x7 .f32 := broadcastInDim S4x384x1248x7 ![] bcast_S_S4x384x1248x7 main_cst
  let main_v2 : IVec S4x384x1248x7 1 := cmpf .olt main_v0 main_v1
  let main_c : IVec S_ 1 := constantI S_ 1 1#1
  let main_v3 : IVec S_ 1 := (fun x v => Host.reduce IntOp.andi x v reducesTo_S4x384x1248x7_S_d0_1_2_3 h_S_) main_v2 main_c
  main_v3
-- ==== Kernel.lean ====
abbrev S4x384x1248x7 : Shape := ⟨4, ![4, 384, 1248, 7]⟩
abbrev S62 : Shape := ⟨1, ![62]⟩
abbrev S_ : Shape := ⟨0, ![]⟩
abbrev S6 : Shape := ⟨1, ![6]⟩
abbrev S62x1 : Shape := ⟨2, ![62, 1]⟩
abbrev S1x6 : Shape := ⟨2, ![1, 6]⟩
abbrev S62x6 : Shape := ⟨2, ![62, 6]⟩
abbrev S6x62 : Shape := ⟨2, ![6, 62]⟩
abbrev S4x384x1248x64 : Shape := ⟨4, ![4, 384, 1248, 64]⟩
abbrev S1x8x1248x7 : Shape := ⟨4, ![1, 8, 1248, 7]⟩
abbrev S1x8x1248x64 : Shape := ⟨4, ![1, 8, 1248, 64]⟩
abbrev S9984x7 : Shape := ⟨2, ![9984, 7]⟩
abbrev S9984x6 : Shape := ⟨2, ![9984, 6]⟩
abbrev S9984x1 : Shape := ⟨2, ![9984, 1]⟩
abbrev S9984x62 : Shape := ⟨2, ![9984, 62]⟩
abbrev S9984x64 : Shape := ⟨2, ![9984, 64]⟩

abbrev nBuf : Space → Nat
  | .hbm => 18
  | .vmem => 7
  | .smem => 0
  | _ => 0

abbrev bufTy : (tb : Table) → Fin (tcTables nBuf tb) → BufTy
  | .hbm, ⟨0, _⟩ => ⟨S4x384x1248x7, .f32⟩
  | .hbm, ⟨1, _⟩ => ⟨S62, .i32⟩
  | .hbm, ⟨2, _⟩ => ⟨S_, .i32⟩
  | .hbm, ⟨3, _⟩ => ⟨S62, .i32⟩
  | .hbm, ⟨4, _⟩ => ⟨S62, .i32⟩
  | .hbm, ⟨5, _⟩ => ⟨S6, .i32⟩
  | .hbm, ⟨6, _⟩ => ⟨S62x1, .i32⟩
  | .hbm, ⟨7, _⟩ => ⟨S1x6, .i32⟩
  | .hbm, ⟨8, _⟩ => ⟨S62x6, .i32⟩
  | .hbm, ⟨9, _⟩ => ⟨S62x6, .i32⟩
  | .hbm, ⟨10, _⟩ => ⟨S62x6, .i32⟩
  | .hbm, ⟨11, _⟩ => ⟨S_, .i32⟩
  | .hbm, ⟨12, _⟩ => ⟨S62x6, .i32⟩
  | .hbm, ⟨13, _⟩ => ⟨S62x6, .i32⟩
  | .hbm, ⟨14, _⟩ => ⟨S62x6, .f32⟩
  | .hbm, ⟨15, _⟩ => ⟨S6x62, .f32⟩
  | .hbm, ⟨16, _⟩ => ⟨S4x384x1248x64, .f32⟩
  | .hbm, ⟨17, _⟩ => ⟨S4x384x1248x64, .f32⟩
  | .local _ .vmem, ⟨0, _⟩ => ⟨S1x8x1248x7, .f32⟩
  | .local _ .vmem, ⟨1, _⟩ => ⟨S1x8x1248x7, .f32⟩
  | .local _ .vmem, ⟨2, _⟩ => ⟨S6x62, .f32⟩
  | .local _ .vmem, ⟨3, _⟩ => ⟨S1x8x1248x64, .f32⟩
  | .local _ .vmem, ⟨4, _⟩ => ⟨S1x8x1248x64, .f32⟩
  | .local _ .vmem, ⟨5, _⟩ => ⟨S1x8x1248x64, .f32⟩
  | .local _ .vmem, ⟨6, _⟩ => ⟨S1x8x1248x64, .f32⟩
  | _, _ => ⟨S4x384x1248x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13_0 : Ref sig .tc := ⟨.hbm, 16, rfl⟩
abbrev main_v13_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 48], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x1248x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S6x62 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x1248x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1248x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S62 : S_.BroadcastsInDim S62 (![] : Fin 0 → Fin S62.rank)
  bcast_S62_S62x1_0 : S62.BroadcastsInDim S62x1 (![0] : Fin 1 → Fin S62x1.rank)
  bcast_S6_S1x6_1 : S6.BroadcastsInDim S1x6 (![1] : Fin 1 → Fin S1x6.rank)
  bcast_S62x1_S62x6_0_1 : S62x1.BroadcastsInDim S62x6 (![0, 1] : Fin 2 → Fin S62x6.rank)
  bcast_S1x6_S62x6_0_1 : S1x6.BroadcastsInDim S62x6 (![0, 1] : Fin 2 → Fin S62x6.rank)
  bcast_S_S62x6 : S_.BroadcastsInDim S62x6 (![] : Fin 0 → Fin S62x6.rank)
  transposes_S62x6_S6x62_1_0 : S62x6.Transposes [1, 0] S6x62
  inb_S1x8x1248x7_S1x8x1248x7_0_0_0_0 : ∀ a, (![0, 0, 0, 0] : Fin 4 → Nat) a + S1x8x1248x7.size a ≤ S1x8x1248x7.size a
  h_S1x8x1248x7 : 0 < S1x8x1248x7.numel
  shapeCasts_S1x8x1248x7_S9984x7 : S1x8x1248x7.ShapeCasts S9984x7
  slices_S9984x7_o0_0_S9984x6 : S9984x7.Slices ![0, 0] S9984x6
  slices_S9984x7_o0_6_S9984x1 : S9984x7.Slices ![0, 6] S9984x1
  inb_S6x62_S6x62_0_0 : ∀ a, (![0, 0] : Fin 2 → Nat) a + S6x62.size a ≤ S6x62.size a
  h_S6x62 : 0 < S6x62.numel
  shapeCasts_S6x62_S6x62 : S6x62.ShapeCasts S6x62
  bitsLt_bf16_f32 : FTy.bits .bf16 < FTy.bits .f32
  concatenates_S9984x1_S9984x62_S9984x1_S9984x64_d1 : Shape.Concatenates [S9984x1, S9984x62, S9984x1] S9984x64 1
  broadcasts_S9984x1_S9984x62 : S9984x1.Broadcasts S9984x62
  shapeCasts_S9984x64_S1x8x1248x64 : S9984x64.ShapeCasts S1x8x1248x64
  inb_S1x8x1248x64_S1x8x1248x64_0_0_0_0 : ∀ a, (![0, 0, 0, 0] : Fin 4 → Nat) a + S1x8x1248x64.size a ≤ S1x8x1248x64.size a
  h_S1x8x1248x64 : 0 < S1x8x1248x64.numel
  dot_S9984x6_S6x62_S9984x62_1_0_0_1_n_n_wf : DotDims.WF S9984x6 S6x62 S9984x62 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x1248x7.size a ≤ S4x384x1248x7.size a
  hwx0_0 : ∀ i : grid0.Coords, EltTy.bits .f32 = 32 ∨ (Rect.block (s := S4x384x1248x7) S1x8x1248x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x62.size a ≤ S6x62.size a
  hwx0_1 : ∀ i : grid0.Coords, EltTy.bits .f32 = 32 ∨ (Rect.block (s := S6x62) S6x62.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x1248x64.size a ≤ S4x384x1248x64.size a
  hwx0_2 : ∀ i : grid0.Coords, EltTy.bits .f32 = 32 ∨ (Rect.block (s := S4x384x1248x64) S1x8x1248x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x1248x64.size a ≤ S4x384x1248x64.size a
  hwx0_3 : ∀ i : grid0.Coords, EltTy.bits .f32 = 32 ∨ (Rect.block (s := S4x384x1248x64) S1x8x1248x64.size (cc0_transform_3 i) (hinb0_3 i)).WholeWords (EltTy.packing .f32)

variable [Facts₀]

def dot_S9984x6_S6x62_S9984x62_1_0_0_1_n_n : DotDims S9984x6 S6x62 S9984x62 where
  lhsContracting := [1]
  rhsContracting := [0]
  lhsNonContracting := [0]
  rhsNonContracting := [1]
  lhsBatch := []
  rhsBatch := []
  wf := dot_S9984x6_S6x62_S9984x62_1_0_0_1_n_n_wf

abbrev win0_0 : Pipeline.Window sig grid0 :=
  Pipeline.Window.ofSpec (Memref.whole main_arg0) S1x8x1248x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S6x62.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13_0) S1x8x1248x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_1) S1x8x1248x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x384x1248x7 : Shape := ⟨4, ![4, 384, 1248, 7]⟩
abbrev S62 : Shape := ⟨1, ![62]⟩
abbrev S_ : Shape := ⟨0, ![]⟩
abbrev S62x1 : Shape := ⟨2, ![62, 1]⟩
abbrev S6 : Shape := ⟨1, ![6]⟩
abbrev S1x6 : Shape := ⟨2, ![1, 6]⟩
abbrev S62x6 : Shape := ⟨2, ![62, 6]⟩
abbrev S4x384x1248x6 : Shape := ⟨4, ![4, 384, 1248, 6]⟩
abbrev S4x384x1248x62 : Shape := ⟨4, ![4, 384, 1248, 62]⟩
abbrev S4x384x1248x1 : Shape := ⟨4, ![4, 384, 1248, 1]⟩
abbrev S4x384x1248x64 : Shape := ⟨4, ![4, 384, 1248, 64]⟩

abbrev nBuf : Space → Nat
  | .hbm => 27
  | .vmem => 0
  | .smem => 0
  | _ => 0

abbrev bufTy : (tb : Table) → Fin (tcTables nBuf tb) → BufTy
  | .hbm, ⟨0, _⟩ => ⟨S4x384x1248x7, .f32⟩
  | .hbm, ⟨1, _⟩ => ⟨S62, .i32⟩
  | .hbm, ⟨2, _⟩ => ⟨S_, .i32⟩
  | .hbm, ⟨3, _⟩ => ⟨S62, .i32⟩
  | .hbm, ⟨4, _⟩ => ⟨S62, .i32⟩
  | .hbm, ⟨5, _⟩ => ⟨S62x1, .i32⟩
  | .hbm, ⟨6, _⟩ => ⟨S6, .i32⟩
  | .hbm, ⟨7, _⟩ => ⟨S1x6, .i32⟩
  | .hbm, ⟨8, _⟩ => ⟨S62x6, .i32⟩
  | .hbm, ⟨9, _⟩ => ⟨S62x6, .i32⟩
  | .hbm, ⟨10, _⟩ => ⟨S62x6, .i32⟩
  | .hbm, ⟨11, _⟩ => ⟨S_, .i32⟩
  | .hbm, ⟨12, _⟩ => ⟨S62x6, .i32⟩
  | .hbm, ⟨13, _⟩ => ⟨S62x6, .i32⟩
  | .hbm, ⟨14, _⟩ => ⟨S62x6, .f32⟩
  | .hbm, ⟨15, _⟩ => ⟨S4x384x1248x6, .f32⟩
  | .hbm, ⟨16, _⟩ => ⟨S4x384x1248x62, .f32⟩
  | .hbm, ⟨17, _⟩ => ⟨S4x384x1248x1, .f32⟩
  | .hbm, ⟨18, _⟩ => ⟨S_, .f32⟩
  | .hbm, ⟨19, _⟩ => ⟨S4x384x1248x1, .f32⟩
  | .hbm, ⟨20, _⟩ => ⟨S_, .f32⟩
  | .hbm, ⟨21, _⟩ => ⟨S4x384x1248x1, .f32⟩
  | .hbm, ⟨22, _⟩ => ⟨S4x384x1248x64, .f32⟩
  | .hbm, ⟨23, _⟩ => ⟨S4x384x1248x1, .f32⟩
  | .hbm, ⟨24, _⟩ => ⟨S4x384x1248x62, .f32⟩
  | .hbm, ⟨25, _⟩ => ⟨S4x384x1248x62, .f32⟩
  | .hbm, ⟨26, _⟩ => ⟨S4x384x1248x64, .f32⟩
  | _, _ => ⟨S4x384x1248x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]

class Facts₀ : Prop where
  bcast_S_S62 : S_.BroadcastsInDim S62 (![] : Fin 0 → Fin S62.rank)
  bcast_S62_S62x1_0 : S62.BroadcastsInDim S62x1 (![0] : Fin 1 → Fin S62x1.rank)
  bcast_S6_S1x6_1 : S6.BroadcastsInDim S1x6 (![1] : Fin 1 → Fin S1x6.rank)
  bcast_S62x1_S62x6_0_1 : S62x1.BroadcastsInDim S62x6 (![0, 1] : Fin 2 → Fin S62x6.rank)
  bcast_S1x6_S62x6_0_1 : S1x6.BroadcastsInDim S62x6 (![0, 1] : Fin 2 → Fin S62x6.rank)
  bcast_S_S62x6 : S_.BroadcastsInDim S62x6 (![] : Fin 0 → Fin S62x6.rank)
  slices_S4x384x1248x7_S4x384x1248x6_0_0_0_0 : S4x384x1248x7.Slices ![0, 0, 0, 0] S4x384x1248x6
  slices_S4x384x1248x7_S4x384x1248x1_0_0_0_0 : S4x384x1248x7.Slices ![0, 0, 0, 0] S4x384x1248x1
  bcast_S_S4x384x1248x1 : S_.BroadcastsInDim S4x384x1248x1 (![] : Fin 0 → Fin S4x384x1248x1.rank)
  concatenates_S4x384x1248x1_S4x384x1248x62_S4x384x1248x1_S4x384x1248x64_d3 : Shape.Concatenates [S4x384x1248x1, S4x384x1248x62, S4x384x1248x1] S4x384x1248x64 3
  slices_S4x384x1248x7_S4x384x1248x1_0_0_0_6 : S4x384x1248x7.Slices ![0, 0, 0, 6] S4x384x1248x1
  bcast_S4x384x1248x1_S4x384x1248x62_0_1_2_3 : S4x384x1248x1.BroadcastsInDim S4x384x1248x62 (![0, 1, 2, 3] : Fin 4 → Fin S4x384x1248x62.rank)
  dot_S4x384x1248x6_S62x6_S4x384x1248x62_3_1_012_0_n_n_wf : DotDims.WF S4x384x1248x6 S62x6 S4x384x1248x62 [3] [1] [0, 1, 2] [0] [] []

variable [Facts₀]

def dot_S4x384x1248x6_S62x6_S4x384x1248x62_3_1_012_0_n_n : DotDims S4x384x1248x6 S62x6 S4x384x1248x62 where
  lhsContracting := [3]
  rhsContracting := [1]
  lhsNonContracting := [0, 1, 2]
  rhsNonContracting := [0]
  lhsBatch := []
  rhsBatch := []
  wf := dot_S4x384x1248x6_S62x6_S4x384x1248x62_3_1_012_0_n_n_wf

class Facts : Prop extends Facts₀ where

variable [Facts]
-- ==== Proof.Belief.lean ====
/- Belief and plausibility of the subsets of a six-element frame, per pixel.

   A pixel carries seven masses: six singleton masses x₀ … x₅ and the mass x₆ of the whole frame. The proper non-empty
   subsets are numbered 1 … 62; a table T (62 rows, 6 columns, entries 0 or 1) says which singletons belong to which
   subset. For a pixel (b, h, w) the 64 output lanes are

     bel lane 0 = 0,   bel lane s+1 = ∑ₖ xₖ · T(s, k)  (s < 62),   bel lane 63 = 1,
     pl  lane 0 = 0,   pl  lane s+1 = ∑ₖ xₖ · T(s, k) + x₆,        pl  lane 63 = 1.

   Both are stated here as functions of the whole array of masses and of the table, index by index, on the extended
   reals. Nothing below depends on what the table's entries are. -/
import Idealize.ShloMosaic.PureOps.Ideal
import Idealize.ShloMosaic.Lib.ValueIdx

noncomputable section

namespace Cert.Belief

open Idealize.ShloMosaic Idealize.ShloMosaic.ValueIdx

/-- The array of masses: batch × rows × columns × 7. -/
abbrev Masses : Shape := ⟨4, ![4, 384, 1248, 7]⟩
/-- The membership table: 62 subsets × 6 singletons. -/
abbrev Table : Shape := ⟨2, ![62, 6]⟩
/-- An output array: batch × rows × columns × 64 lanes. -/
abbrev Lanes : Shape := ⟨4, ![4, 384, 1248, 64]⟩

/-- Singleton k as one of a pixel's seven mass coordinates. -/
def single (k : Fin 6) : Fin 7 := ⟨k.val, Nat.lt_of_lt_of_le k.isLt (by decide)⟩

/-- The coordinate of the whole frame's mass. -/
def whole : Fin 7 := ⟨6, by decide⟩

/-- The value the lane 0 holds: the float zero. -/
def laneZero : EReal := FloatOps.ofBits (F := Ideal) .f32 0x00000000#32
/-- The value the lane 63 holds: the float one. -/
def laneOne : EReal := FloatOps.ofBits (F := Ideal) .f32 0x3F800000#32

/-- The belief of subset s at pixel (b, h, w): the singleton masses weighted by row s of the table. -/
def subsetMass (x : FVec Ideal Masses .f32) (T : FVec Ideal Table .f32) (b : Fin 4) (h : Fin 384) (w : Fin 1248)
    (s : Fin 62) : EReal :=
  ∑ k : Fin 6, x (ix4 b h w (single k)) * T (ix2 s k)

/-- The subset a middle lane speaks of: lane c, 1 ≤ c ≤ 62, is subset c − 1. -/
def subsetOf (c : Nat) (h0 : c ≠ 0) (h1 : c < 63) : Fin 62 := ⟨c - 1, by omega⟩

/-- The belief array. -/
def bel (x : FVec Ideal Masses .f32) (T : FVec Ideal Table .f32) : FVec Ideal Lanes .f32 := fun i =>
  if h0 : (i 3).val = 0 then laneZero
  else if h1 : (i 3).val < 63 then subsetMass x T (i 0) (i 1) (i 2) (subsetOf (i 3).val h0 h1)
  else laneOne

/-- The plausibility array: on the middle lanes the belief plus the mass of the whole frame. -/
def pl (x : FVec Ideal Masses .f32) (T : FVec Ideal Table .f32) : FVec Ideal Lanes .f32 := fun i =>
  if h0 : (i 3).val = 0 then laneZero
  else if h1 : (i 3).val < 63 then subsetMass x T (i 0) (i 1) (i 2) (subsetOf (i 3).val h0 h1) + x (ix4 (i 0) (i 1) (i 2) whole)
  else laneOne

/-- The belief array at a pixel's lane, by the lane. -/
theorem bel_at (x : FVec Ideal Masses .f32) (T : FVec Ideal Table .f32) (b : Fin 4) (h : Fin 384) (w : Fin 1248) (c : Fin 64) :
    bel x T (ix4 b h w c) = if h0 : c.val = 0 then laneZero
      else if h1 : c.val < 63 then subsetMass x T b h w (subsetOf c.val h0 h1) else laneOne := rfl

/-- The plausibility array at a pixel's lane, by the lane. -/
theorem pl_at (x : FVec Ideal Masses .f32) (T : FVec Ideal Table .f32) (b : Fin 4) (h : Fin 384) (w : Fin 1248) (c : Fin 64) :
    pl x T (ix4 b h w c) = if h0 : c.val = 0 then laneZero
      else if h1 : c.val < 63 then subsetMass x T b h w (subsetOf c.val h0 h1) + x (ix4 b h w whole) else laneOne := rfl

end Cert.Belief

end
-- ==== Proof.LibConcatThree.lean ====
/- Three pieces laid side by side along the LAST axis, read at an index: a concatenation `[A | B | C]` of widths
   p, q, r (so w = p + q + r) holds, at last-axis coordinate c, the entry of `A` at c when c < p, of `B` at c − p when
   p ≤ c < p + q, and of `C` at c − p − q when p + q ≤ c; the other coordinates are kept. Stated at rank 2 (a matrix's
   columns) and at rank 4, over abstract extents and any element type. -/
import Idealize.ShloMosaic.Lib.Pipeline.Value
import Idealize.ShloMosaic.Lib.ValueIdx

namespace Cert.Lib.ConcatThree

open Idealize.ShloMosaic Idealize.ShloMosaic.ValueIdx

variable {α : Type}

section Rank2

variable {n p q r w : Nat}
  (A : (⟨2, ![n, p]⟩ : Shape).Idx → α) (B : (⟨2, ![n, q]⟩ : Shape).Idx → α) (C : (⟨2, ![n, r]⟩ : Shape).Idx → α)
  (h : Shape.Concatenates [(⟨2, ![n, p]⟩ : Shape), ⟨2, ![n, q]⟩, ⟨2, ![n, r]⟩] ⟨2, ![n, w]⟩ 1)

/-- A column of the left piece. -/
theorem cols_left (a : Fin n) (c : Fin w) (hc : c.val < p) :
    concatenate ⟨2, ![n, w]⟩ 1 [⟨_, A⟩, ⟨_, B⟩, ⟨_, C⟩] h (ix2 a c) = A (ix2 a ⟨c.val, hc⟩) :=
  concatenate_apply_piece 1 [⟨_, A⟩, ⟨_, B⟩, ⟨_, C⟩] h (ix2 a c) 0 (by simp) _ A rfl rfl 0 rfl (ix2 a ⟨c.val, hc⟩)
    (fun b hb => match b with | ⟨0, _⟩ => rfl | ⟨1, _⟩ => absurd rfl hb) (Nat.zero_add _)

/-- A column of the middle piece. -/
theorem cols_mid (a : Fin n) (c : Fin w) (hp : p ≤ c.val) (hq : c.val - p < q) :
    concatenate ⟨2, ![n, w]⟩ 1 [⟨_, A⟩, ⟨_, B⟩, ⟨_, C⟩] h (ix2 a c) = B (ix2 a ⟨c.val - p, hq⟩) :=
  concatenate_apply_piece 1 [⟨_, A⟩, ⟨_, B⟩, ⟨_, C⟩] h (ix2 a c) 1 (by simp) _ B rfl rfl p (by simp) (ix2 a ⟨c.val - p, hq⟩)
    (fun b hb => match b with | ⟨0, _⟩ => rfl | ⟨1, _⟩ => absurd rfl hb) (Nat.add_sub_cancel' hp)

/-- A column of the right piece. -/
theorem cols_right (a : Fin n) (c : Fin w) (hpq : p + q ≤ c.val) (hr : c.val - (p + q) < r) :
    concatenate ⟨2, ![n, w]⟩ 1 [⟨_, A⟩, ⟨_, B⟩, ⟨_, C⟩] h (ix2 a c) = C (ix2 a ⟨c.val - (p + q), hr⟩) :=
  concatenate_apply_piece 1 [⟨_, A⟩, ⟨_, B⟩, ⟨_, C⟩] h (ix2 a c) 2 (by simp) _ C rfl rfl (p + q) (by simp) (ix2 a ⟨c.val - (p + q), hr⟩)
    (fun b hb => match b with | ⟨0, _⟩ => rfl | ⟨1, _⟩ => absurd rfl hb) (Nat.add_sub_cancel' hpq)

end Rank2

section Rank4

variable {n0 n1 n2 p q r w : Nat}
  (A : (⟨4, ![n0, n1, n2, p]⟩ : Shape).Idx → α) (B : (⟨4, ![n0, n1, n2, q]⟩ : Shape).Idx → α)
  (C : (⟨4, ![n0, n1, n2, r]⟩ : Shape).Idx → α)
  (h : Shape.Concatenates [(⟨4, ![n0, n1, n2, p]⟩ : Shape), ⟨4, ![n0, n1, n2, q]⟩, ⟨4, ![n0, n1, n2, r]⟩]
    ⟨4, ![n0, n1, n2, w]⟩ 3)

/-- A lane of the left piece. -/
theorem lanes_left (a0 : Fin n0) (a1 : Fin n1) (a2 : Fin n2) (c : Fin w) (hc : c.val < p) :
    concatenate ⟨4, ![n0, n1, n2, w]⟩ 3 [⟨_, A⟩, ⟨_, B⟩, ⟨_, C⟩] h (ix4 a0 a1 a2 c) = A (ix4 a0 a1 a2 ⟨c.val, hc⟩) :=
  concatenate_apply_piece 3 [⟨_, A⟩, ⟨_, B⟩, ⟨_, C⟩] h (ix4 a0 a1 a2 c) 0 (by simp) _ A rfl rfl 0 rfl (ix4 a0 a1 a2 ⟨c.val, hc⟩)
    (fun b hb => match b with | ⟨0, _⟩ => rfl | ⟨1, _⟩ => rfl | ⟨2, _⟩ => rfl | ⟨3, _⟩ => absurd rfl hb) (Nat.zero_add _)

/-- A lane of the middle piece. -/
theorem lanes_mid (a0 : Fin n0) (a1 : Fin n1) (a2 : Fin n2) (c : Fin w) (hp : p ≤ c.val) (hq : c.val - p < q) :
    concatenate ⟨4, ![n0, n1, n2, w]⟩ 3 [⟨_, A⟩, ⟨_, B⟩, ⟨_, C⟩] h (ix4 a0 a1 a2 c) = B (ix4 a0 a1 a2 ⟨c.val - p, hq⟩) :=
  concatenate_apply_piece 3 [⟨_, A⟩, ⟨_, B⟩, ⟨_, C⟩] h (ix4 a0 a1 a2 c) 1 (by simp) _ B rfl rfl p (by simp) (ix4 a0 a1 a2 ⟨c.val - p, hq⟩)
    (fun b hb => match b with | ⟨0, _⟩ => rfl | ⟨1, _⟩ => rfl | ⟨2, _⟩ => rfl | ⟨3, _⟩ => absurd rfl hb)
    (Nat.add_sub_cancel' hp)

/-- A lane of the right piece. -/
theorem lanes_right (a0 : Fin n0) (a1 : Fin n1) (a2 : Fin n2) (c : Fin w) (hpq : p + q ≤ c.val)
    (hr : c.val - (p + q) < r) :
    concatenate ⟨4, ![n0, n1, n2, w]⟩ 3 [⟨_, A⟩, ⟨_, B⟩, ⟨_, C⟩] h (ix4 a0 a1 a2 c)
      = C (ix4 a0 a1 a2 ⟨c.val - (p + q), hr⟩) :=
  concatenate_apply_piece 3 [⟨_, A⟩, ⟨_, B⟩, ⟨_, C⟩] h (ix4 a0 a1 a2 c) 2 (by simp) _ C rfl rfl (p + q) (by simp)
    (ix4 a0 a1 a2 ⟨c.val - (p + q), hr⟩)
    (fun b hb => match b with | ⟨0, _⟩ => rfl | ⟨1, _⟩ => rfl | ⟨2, _⟩ => rfl | ⟨3, _⟩ => absurd rfl hb)
    (Nat.add_sub_cancel' hpq)

end Rank4

end Cert.Lib.ConcatThree
-- ==== Proof.BlockBelief.lean ====
/- What the kernel's body computes from one block of masses and the (transposed) membership table, read at an entry.

   A block holds 8 image rows of 1248 pixels; the body flattens it to 9984 pixel rows (pixel (hh, w) is row
   hh · 1248 + w), multiplies the six singleton masses of each pixel into the 6 × 62 table, and lays a zero column, the
   62 products and a one column side by side; the plausibility block adds the seventh mass to the 62 middle lanes. -/
import proofs.«170387_j35656818492190_2_alg».proof.Proof.Gen.KernelIdeal.Skeleton
import proofs.«170387_j35656818492190_2_alg».proof.Proof.Belief
import proofs.«170387_j35656818492190_2_alg».proof.Proof.LibConcatThree
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx
open Cert.Belief Cert.Lib.ConcatThree

/-- Pixel (hh, w) of a block is row hh · 1248 + w of the flattened block. -/
def pixelRow (hh : Fin 8) (w : Fin 1248) : Fin 9984 := ⟨hh.val * 1248 + w.val, by omega⟩

/-- The flattened block at (pixel row, coordinate) is the block at (0, hh, w, coordinate). -/
theorem flat_at (x0 : Vec Ideal S1x8x1248x7 .f32) (hh : Fin 8) (w : Fin 1248) (k : Fin 7) :
    k0_pay1 x0 (ix2 (pixelRow hh w) k) = x0 (ix4 (0 : Fin 1) hh w k) := by
  unfold k0_pay1
  exact shapeCast_apply x0 _ _ _ (by
    rw [Shape.rowMajor_val_four, Shape.rowMajor_val_two]
    show ((0 * 8 + hh.val) * 1248 + w.val) * 7 + k.val = (hh.val * 1248 + w.val) * 7 + k.val
    omega)

/-- The left operand's index at output (r, s) and contracted coordinate k is (r, k). -/
theorem lhs_at (i : S9984x62.Idx) (q : dot_S9984x6_S6x62_S9984x62_1_0_0_1_n_n.contr.Idx) :
    (dot_S9984x6_S6x62_S9984x62_1_0_0_1_n_n.lhsIdx i q 0).val = (i 0).val := by
  unfold DotDims.lhsIdx
  rw [dif_neg (show ¬(0 : Fin S9984x6.rank) ∈ dot_S9984x6_S6x62_S9984x62_1_0_0_1_n_n.lhsBatch by decide),
    dif_pos (show (0 : Fin S9984x6.rank) ∈ dot_S9984x6_S6x62_S9984x62_1_0_0_1_n_n.lhsNonContracting by decide)]
  rfl

/-- The right operand's index at output (r, s) and contracted coordinate k is (k, s). -/
theorem rhs_at (i : S9984x62.Idx) (q : dot_S9984x6_S6x62_S9984x62_1_0_0_1_n_n.contr.Idx) :
    (dot_S9984x6_S6x62_S9984x62_1_0_0_1_n_n.rhsIdx i q 1).val = (i 1).val := by
  unfold DotDims.rhsIdx
  rw [dif_neg (show ¬(1 : Fin S6x62.rank) ∈ dot_S9984x6_S6x62_S9984x62_1_0_0_1_n_n.rhsBatch by decide),
    dif_pos (show (1 : Fin S6x62.rank) ∈ dot_S9984x6_S6x62_S9984x62_1_0_0_1_n_n.rhsNonContracting by decide)]
  rfl

/-- The matrix product into zeros at (r, s): the sum over the six contracted coordinates. -/
theorem product_at (A : FVec Ideal S9984x6 .bf16) (B : FVec Ideal S6x62 .bf16) (r : Fin 9984) (s : Fin 62) :
    matmul dot_S9984x6_S6x62_S9984x62_1_0_0_1_n_n none A B (constant (F := Ideal) S9984x62 .f32 0x00000000#32) (ix2 r s)
      = ∑ k : Fin 6, A (ix2 r k) * B (ix2 k s) := by
  simp only [matmul]
  rw [Ideal.matmul_constant_zero_apply,
    ← Equiv.sum_comp (contrEquiv1 dot_S9984x6_S6x62_S9984x62_1_0_0_1_n_n 6 rfl rfl).symm]
  refine Finset.sum_congr rfl fun k _ => ?_
  have hk := contrEquiv1_symm_val dot_S9984x6_S6x62_S9984x62_1_0_0_1_n_n 6 rfl rfl k
  have el : dot_S9984x6_S6x62_S9984x62_1_0_0_1_n_n.lhsIdx (ix2 r s)
      ((contrEquiv1 dot_S9984x6_S6x62_S9984x62_1_0_0_1_n_n 6 rfl rfl).symm k) = ix2 r k := funext fun a => Fin.ext (by
    match a with
    | ⟨0, _⟩ => exact lhs_at _ _
    | ⟨1, _⟩ => exact (dot_S9984x6_S6x62_S9984x62_1_0_0_1_n_n.lhsIdx_val_of_single rfl _ _).trans hk)
  have er : dot_S9984x6_S6x62_S9984x62_1_0_0_1_n_n.rhsIdx (ix2 r s)
      ((contrEquiv1 dot_S9984x6_S6x62_S9984x62_1_0_0_1_n_n 6 rfl rfl).symm k) = ix2 k s := funext fun a => Fin.ext (by
    match a with
    | ⟨0, _⟩ => exact (dot_S9984x6_S6x62_S9984x62_1_0_0_1_n_n.rhsIdx_val_of_single rfl _ _).trans hk
    | ⟨1, _⟩ => exact rhs_at _ _)
  rw [el, er]

/-- The 62 products of a pixel: its six singleton masses against column s of the transposed table. -/
theorem products_at (x0 : Vec Ideal S1x8x1248x7 .f32) (x1 : Vec Ideal S6x62 .f32) (hh : Fin 8) (w : Fin 1248) (s : Fin 62) :
    k0_pay2 x0 x1 (ix2 (pixelRow hh w) s) = ∑ k : Fin 6, x0 (ix4 (0 : Fin 1) hh w (single k)) * x1 (ix2 k s) := by
  unfold k0_pay2
  refine (product_at _ _ (pixelRow hh w) s).trans ?_
  refine Finset.sum_congr rfl fun k _ => ?_
  rw [truncf_apply, truncf_apply, shapeCast_self]
  refine congrArg (· * x1 (ix2 k s)) ?_
  refine (extractStridedSlice_apply _ _ _ _ (ix2 (pixelRow hh w) (single k)) (fun a => ?_)).trans (flat_at x0 hh w (single k))
  match a with
  | ⟨0, _⟩ => exact (Nat.zero_add _).symm
  | ⟨1, _⟩ => exact (Nat.zero_add _).symm

/-- The lanes of a pixel's belief row as the body lays them out: zero, the 62 products, one. -/
def belLane (x0 : Vec Ideal S1x8x1248x7 .f32) (x1 : Vec Ideal S6x62 .f32) (hh : Fin 8) (w : Fin 1248) (c : Fin 64) : EReal :=
  if h0 : c.val = 0 then laneZero
  else if h1 : c.val < 63 then ∑ k : Fin 6, x0 (ix4 (0 : Fin 1) hh w (single k)) * x1 (ix2 k (subsetOf c.val h0 h1))
  else laneOne

/-- The lanes of a pixel's plausibility row: the middle lanes carry the seventh mass as well. -/
def plLane (x0 : Vec Ideal S1x8x1248x7 .f32) (x1 : Vec Ideal S6x62 .f32) (hh : Fin 8) (w : Fin 1248) (c : Fin 64) : EReal :=
  if h0 : c.val = 0 then laneZero
  else if h1 : c.val < 63 then
    (∑ k : Fin 6, x0 (ix4 (0 : Fin 1) hh w (single k)) * x1 (ix2 k (subsetOf c.val h0 h1))) + x0 (ix4 (0 : Fin 1) hh w whole)
  else laneOne

/-- A block entry (z, hh, w, c) of the reshaped result is entry (pixel row, c) of the flat one. -/
theorem unflat_at (v : FVec Ideal S9984x64 .f32) (z : Fin 1) (hh : Fin 8) (w : Fin 1248) (c : Fin 64) :
    shapeCast S1x8x1248x64 v shapeCasts_S9984x64_S1x8x1248x64 (ix4 z hh w c) = v (ix2 (pixelRow hh w) c) :=
  shapeCast_apply v _ _ _ (by
    rw [Shape.rowMajor_val_two, Shape.rowMajor_val_four]
    show (hh.val * 1248 + w.val) * 64 + c.val = ((z.val * 8 + hh.val) * 1248 + w.val) * 64 + c.val
    have := z.isLt
    omega)

/-- The belief block the body stores, at an entry. -/
theorem bel_block_at (x0 : Vec Ideal S1x8x1248x7 .f32) (x1 : Vec Ideal S6x62 .f32) (z : Fin 1) (hh : Fin 8) (w : Fin 1248)
    (c : Fin 64) : k0_pay5 x0 x1 (ix4 z hh w c) = belLane x0 x1 hh w c := by
  unfold k0_pay5 belLane
  refine (unflat_at _ z hh w c).trans ?_
  by_cases h0 : c.val = 0
  · rw [dif_pos h0]
    refine (cols_left (n := 9984) (p := 1) (q := 62) (r := 1) (w := 64) _ _ _ _ (pixelRow hh w) c (by omega)).trans ?_
    rfl
  · rw [dif_neg h0]
    by_cases h1 : c.val < 63
    · rw [dif_pos h1]
      refine (cols_mid (n := 9984) (p := 1) (q := 62) (r := 1) (w := 64) _ _ _ _ (pixelRow hh w) c (by omega)
        (by omega)).trans ?_
      exact products_at x0 x1 hh w _
    · rw [dif_neg h1]
      refine (cols_right (n := 9984) (p := 1) (q := 62) (r := 1) (w := 64) _ _ _ _ (pixelRow hh w) c (by omega)
        (by have := c.isLt; omega)).trans ?_
      rfl

/-- The seventh mass of a pixel spread over the 62 middle lanes. -/
theorem frame_mass_at (x0 : Vec Ideal S1x8x1248x7 .f32) (hh : Fin 8) (w : Fin 1248) (s : Fin 62) :
    broadcastTo S9984x62 (extractStridedSlice S9984x1 ![0, 6] (k0_pay1 x0) slices_S9984x7_o0_6_S9984x1)
        broadcasts_S9984x1_S9984x62 (ix2 (pixelRow hh w) s) = x0 (ix4 (0 : Fin 1) hh w whole) := by
  refine (broadcastTo_apply _ _ _ (ix2 (pixelRow hh w) (0 : Fin 1)) (fun a => ?_)).trans ?_
  · match a with
    | ⟨0, _⟩ =>
      show (pixelRow hh w).val = if (9984 : Nat) = 1 then 0 else (pixelRow hh w).val
      rw [if_neg (by decide)]
    | ⟨1, _⟩ =>
      show 0 = if (1 : Nat) = 1 then 0 else s.val
      rw [if_pos rfl]
  refine (extractStridedSlice_apply _ _ _ _ (ix2 (pixelRow hh w) whole) (fun a => ?_)).trans (flat_at x0 hh w whole)
  match a with
  | ⟨0, _⟩ => exact (Nat.zero_add _).symm
  | ⟨1, _⟩ => rfl

/-- The plausibility block the body stores, at an entry. -/
theorem pl_block_at (x0 : Vec Ideal S1x8x1248x7 .f32) (x1 : Vec Ideal S6x62 .f32) (z : Fin 1) (hh : Fin 8) (w : Fin 1248)
    (c : Fin 64) : k0_pay6 x0 x1 (ix4 z hh w c) = plLane x0 x1 hh w c := by
  unfold k0_pay6 plLane
  refine (unflat_at _ z hh w c).trans ?_
  by_cases h0 : c.val = 0
  · rw [dif_pos h0]
    refine (cols_left (n := 9984) (p := 1) (q := 62) (r := 1) (w := 64) _ _ _ _ (pixelRow hh w) c (by omega)).trans ?_
    rfl
  · rw [dif_neg h0]
    by_cases h1 : c.val < 63
    · rw [dif_pos h1]
      refine (cols_mid (n := 9984) (p := 1) (q := 62) (r := 1) (w := 64) _ _ _ _ (pixelRow hh w) c (by omega)
        (by omega)).trans ?_
      rw [addf_apply]
      exact congrArg₂ (· + ·) (products_at x0 x1 hh w _) (frame_mass_at x0 hh w _)
    · rw [dif_neg h1]
      refine (cols_right (n := 9984) (p := 1) (q := 62) (r := 1) (w := 64) _ _ _ _ (pixelRow hh w) c (by omega)
        (by have := c.isLt; omega)).trans ?_
      rfl

end Cert.KernelIdeal.Block

end
-- ==== Proof.KernelBelief.lean ====
/- The kernel's two result arrays are the belief and the plausibility arrays of its argument and of the membership
   table its host code computes.

   Grid point (b, g) stages block (b, g) of the masses — image rows 8g … 8g+7 of batch entry b — and the whole
   transposed table, and writes back block (b, g) of each result; the 4 × 48 result blocks tile the result arrays. So
   the arrays after the run are read off block by block: entry (b, 8g + hh, w, c) is the body's entry (0, hh, w, c) at
   point (b, g). -/
import proofs.«170387_j35656818492190_2_alg».proof.Proof.Gen.KernelIdeal.Value
import proofs.«170387_j35656818492190_2_alg».proof.Proof.BlockBelief
import Idealize.ShloMosaic.Lib.StableHlo.Run

noncomputable section

namespace Cert.KernelIdeal.AsBelief

open Cert.KernelIdeal Cert.KernelIdeal.Gen Cert.KernelIdeal.Value Cert.KernelIdeal.Block
open Idealize.ShloMosaic Idealize.ShloMosaic.TcCoe Idealize.SL.Sem Idealize.ShloMosaic.ValueIdx
open Idealize.ShloMosaic.Pipeline (Dat)
open Cert.Belief

variable (m : (ℓ : Loc nD τ sig) → Buf (Elt Ideal) ℓ) (ρ : Dev nD → PrngReg)

/-- The membership table as the kernel's host code computes it (62 subsets × 6 singletons): bit k of the subset's
    number s + 1, as a float. -/
def table : FVec Ideal S62x6 .f32 :=
  sitofp .f32 (andi (Host.shrsi
      (broadcastInDim S62x6 ![0, 1] bcast_S62x1_S62x6_0_1 (broadcastInDim S62x1 ![0] bcast_S62_S62x1_0
        (addi (broadcastInDim S62 ![] bcast_S_S62 (constantI S_ 32 1#32)) (iotaInDim S62 32 0))))
      (broadcastInDim S62x6 ![0, 1] bcast_S1x6_S62x6_0_1 (broadcastInDim S1x6 ![1] bcast_S6_S1x6_1 (iotaInDim S6 32 0))))
    (broadcastInDim S62x6 ![] bcast_S_S62x6 (constantI S_ 32 1#32)))

/-- The region finds the table's transpose in its second operand's array. -/
theorem staged_table (c : Dev nD) :
    (V m c main_v12 : S6x62.Idx → EReal) = transpose S6x62 [1, 0] table transposes_S62x6_S6x62_1_0 := by
  dsimp only [Gen.V, Gen.hostOps0]
  after_results
  rfl

/-- The staged table at (k, s) is the table at (s, k). -/
theorem staged_table_at (c : Dev nD) (k : Fin 6) (s : Fin 62) : V m c main_v12 (ix2 k s) = table (ix2 s k) := by
  rw [staged_table]
  exact transpose_apply _ table _ _ (ix2 s k) fun b => match b with | ⟨0, _⟩ => rfl | ⟨1, _⟩ => rfl

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-- The block indices at a grid point, decided over the 192 points: the masses' block moves with the results' blocks
    along the batch and the row-group axes, every other block index is 0, and the two results share their index. -/
theorem block_indices : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_2.index t (2 : Fin 4) = 0 ∧ win0_2.index t (3 : Fin 4) = 0
    ∧ win0_1.index t (0 : Fin 2) = 0 ∧ win0_1.index t (1 : Fin 2) = 0
    ∧ win0_3.index t = win0_2.index t
    ∧ win0_2.index t (0 : Fin 4) < 4 ∧ win0_2.index t (1 : Fin 4) < 48 :=
  (by decide +kernel : ∀ t : Fin grid0.N, _)

/-- Every (batch entry, row group) is some grid point's block. -/
theorem block_onto : ∀ (q0 : Fin 4) (q1 : Fin 48), ∃ t : Fin cfg0.N, win0_2.index t = ![q0.val, q1.val, 0, 0] :=
  (by decide +kernel : ∀ (q0 : Fin 4) (q1 : Fin 48), ∃ t : Fin grid0.N, win0_2.index t = ![q0.val, q1.val, 0, 0])

/-- A pixel's lanes in a block, against the array the block was cut from: when the block's entries are the array's
    (`hx`), the staged table is the table's transpose (`hT`) and the lane is the same (`hc`), the body's belief lane
    is the belief array's entry. -/
theorem bel_lane_eq (X : FVec Ideal Masses .f32) (T : FVec Ideal Table .f32) (x0 : Vec Ideal S1x8x1248x7 .f32)
    (x1 : Vec Ideal S6x62 .f32) (i : Lanes.Idx) (hh : Fin 8) (w : Fin 1248) (c : Fin 64) (hc : c.val = (i 3).val)
    (hx : ∀ k : Fin 7, x0 (ix4 (0 : Fin 1) hh w k) = X (ix4 (i 0) (i 1) (i 2) k))
    (hT : ∀ (k : Fin 6) (s : Fin 62), x1 (ix2 k s) = T (ix2 s k)) :
    belLane x0 x1 hh w c = bel X T i := by
  obtain rfl : c = i 3 := Fin.ext hc
  unfold belLane bel subsetMass
  by_cases h0 : (i 3).val = 0
  · rw [dif_pos h0, dif_pos h0]
  · rw [dif_neg h0, dif_neg h0]
    by_cases h1 : (i 3).val < 63
    · rw [dif_pos h1, dif_pos h1]
      exact Finset.sum_congr rfl fun k _ => by rw [hx, hT]
    · rw [dif_neg h1, dif_neg h1]

/-- The same for the plausibility lane. -/
theorem pl_lane_eq (X : FVec Ideal Masses .f32) (T : FVec Ideal Table .f32) (x0 : Vec Ideal S1x8x1248x7 .f32)
    (x1 : Vec Ideal S6x62 .f32) (i : Lanes.Idx) (hh : Fin 8) (w : Fin 1248) (c : Fin 64) (hc : c.val = (i 3).val)
    (hx : ∀ k : Fin 7, x0 (ix4 (0 : Fin 1) hh w k) = X (ix4 (i 0) (i 1) (i 2) k))
    (hT : ∀ (k : Fin 6) (s : Fin 62), x1 (ix2 k s) = T (ix2 s k)) :
    plLane x0 x1 hh w c = pl X T i := by
  obtain rfl : c = i 3 := Fin.ext hc
  unfold plLane pl subsetMass
  by_cases h0 : (i 3).val = 0
  · rw [dif_pos h0, dif_pos h0]
  · rw [dif_neg h0, dif_neg h0]
    by_cases h1 : (i 3).val < 63
    · rw [dif_pos h1, dif_pos h1, hx]
      exact congrArg (· + _) (Finset.sum_congr rfl fun k _ => by rw [hx, hT])
    · rw [dif_neg h1, dif_neg h1]

/-- The body's belief block at any entry, by the entry's coordinates. -/
theorem bel_block_entry (x0 : Vec Ideal S1x8x1248x7 .f32) (x1 : Vec Ideal S6x62 .f32) (y : S1x8x1248x64.Idx) :
    k0_pay5 x0 x1 y = belLane x0 x1 (y 1) (y 2) (y 3) :=
  (congrArg (k0_pay5 x0 x1) (eq_ix4 y)).trans (bel_block_at x0 x1 (y 0) (y 1) (y 2) (y 3))

/-- The body's plausibility block at any entry, by the entry's coordinates. -/
theorem pl_block_entry (x0 : Vec Ideal S1x8x1248x7 .f32) (x1 : Vec Ideal S6x62 .f32) (y : S1x8x1248x64.Idx) :
    k0_pay6 x0 x1 y = plLane x0 x1 (y 1) (y 2) (y 3) :=
  (congrArg (k0_pay6 x0 x1) (eq_ix4 y)).trans (pl_block_at x0 x1 (y 0) (y 1) (y 2) (y 3))

/-- The masses' block at point t, at pixel (hh, w) and coordinate k, is the array's entry at the matching pixel of
    the result block's position. -/
theorem masses_block_at (c : Dev nD) (t : Fin cfg0.N) (j : S1x8x1248x64.Idx) (k : Fin 7) :
    iblk m c 0 t (ix4 (0 : Fin 1) (j 1) (j 2) k)
      = V m c main_arg0 (ix4 (((cfg0.win 2).blk t).view.emb j 0) (((cfg0.win 2).blk t).view.emb j 1)
          (((cfg0.win 2).blk t).view.emb j 2) k) := by
  obtain ⟨e0, e1, e2, e3, e4, e5, -⟩ := block_indices t
  show V m c main_arg0 (((cfg0.win 0).blk t).view.emb (ix4 (0 : Fin 1) (j 1) (j 2) k)) = _
  refine congrArg (V m c main_arg0) (funext fun a => Fin.ext ?_)
  match a with
  | ⟨0, _⟩ =>
    show win0_0.index t (0 : Fin 4) * 1 + 1 * 0 = win0_2.index t (0 : Fin 4) * 1 + 1 * (j 0).val
    have hj : (j 0).val < 1 := (j 0).isLt
    omega
  | ⟨1, _⟩ =>
    show win0_0.index t (1 : Fin 4) * 8 + 1 * (j 1).val = win0_2.index t (1 : Fin 4) * 8 + 1 * (j 1).val
    omega
  | ⟨2, _⟩ =>
    show win0_0.index t (2 : Fin 4) * 1248 + 1 * (j 2).val = win0_2.index t (2 : Fin 4) * 1248 + 1 * (j 2).val
    omega
  | ⟨3, _⟩ =>
    show win0_0.index t (3 : Fin 4) * 7 + 1 * k.val = k.val
    omega

/-- The staged table block at any point is the table's transpose. -/
theorem table_block_at (c : Dev nD) (t : Fin cfg0.N) (k : Fin 6) (s : Fin 62) :
    iblk m c 1 t (ix2 k s) = table (ix2 s k) := by
  obtain ⟨-, -, -, -, -, -, e6, e7, -⟩ := block_indices t
  show V m c main_v12 (((cfg0.win 1).blk t).view.emb (ix2 k s)) = _
  refine Eq.trans (congrArg (V m c main_v12) (funext fun a => Fin.ext ?_)) (staged_table_at m c k s)
  match a with
  | ⟨0, _⟩ =>
    show win0_1.index t (0 : Fin 2) * 6 + 1 * k.val = k.val
    omega
  | ⟨1, _⟩ =>
    show win0_1.index t (1 : Fin 2) * 62 + 1 * s.val = s.val
    omega

end Cert.KernelIdeal.AsBelief

end
-- ==== Proof.KernelArrays.lean ====
/- From blocks to arrays: what each grid point writes back is its block of the belief (plausibility) array, the 4 × 48
   blocks tile the array, so after the run the first result array is the belief array and the second the plausibility
   array of the argument and of the table. -/
import proofs.«170387_j35656818492190_2_alg».proof.Proof.KernelBelief

noncomputable section

namespace Cert.KernelIdeal.AsBelief

open Cert.KernelIdeal Cert.KernelIdeal.Gen Cert.KernelIdeal.Value Cert.KernelIdeal.Block
open Idealize.ShloMosaic Idealize.ShloMosaic.TcCoe Idealize.SL.Sem Idealize.ShloMosaic.ValueIdx
open Idealize.ShloMosaic.Pipeline (Dat)
open Cert.Belief

variable (m : (ℓ : Loc nD τ sig) → Buf (Elt Ideal) ℓ) (ρ : Dev nD → PrngReg)

/-- What point t writes back to the first result is block t of the belief array. -/
theorem bel_flushed (c : Dev nD) (t : Fin cfg0.N) :
    (dats m 0 c).flushed 2 t = ((cfg0.win 2).blk t).view.read (Elt Ideal) (bel (V m c main_arg0) table) := by
  rw [flushed2]
  unfold out0_2
  rw [View.canon_unit_zero zeros4]
  simp only [View.ld_unit_zero (S := S1x8x1248x7) zeros4, View.ld_unit_zero (S := S6x62) zeros2]
  obtain ⟨-, -, -, -, -, e5, -⟩ := block_indices t
  funext j
  show k0_pay5 (iblk m c 0 t) (iblk m c 1 t) j = bel (V m c main_arg0) table (((cfg0.win 2).blk t).view.emb j)
  refine (bel_block_entry _ _ j).trans (bel_lane_eq _ _ _ _ (((cfg0.win 2).blk t).view.emb j) (j 1) (j 2) (j 3) ?_
    (fun k => masses_block_at m c t j k) (fun k s => table_block_at m c t k s))
  show (j 3).val = win0_2.index t (3 : Fin 4) * 64 + 1 * (j 3).val
  omega

/-- The two results' blocks at a point sit at the same place of their arrays. -/
theorem second_block_place (t : Fin cfg0.N) (j : S1x8x1248x64.Idx) :
    ((cfg0.win 3).blk t).view.emb j = ((cfg0.win 2).blk t).view.emb j := by
  obtain ⟨-, -, -, -, -, -, -, -, e8, -⟩ := block_indices t
  funext a
  apply Fin.ext
  match a with
  | ⟨0, _⟩ =>
    show win0_3.index t (0 : Fin 4) * 1 + 1 * (j 0).val = win0_2.index t (0 : Fin 4) * 1 + 1 * (j 0).val
    rw [e8]
  | ⟨1, _⟩ =>
    show win0_3.index t (1 : Fin 4) * 8 + 1 * (j 1).val = win0_2.index t (1 : Fin 4) * 8 + 1 * (j 1).val
    rw [e8]
  | ⟨2, _⟩ =>
    show win0_3.index t (2 : Fin 4) * 1248 + 1 * (j 2).val = win0_2.index t (2 : Fin 4) * 1248 + 1 * (j 2).val
    rw [e8]
  | ⟨3, _⟩ =>
    show win0_3.index t (3 : Fin 4) * 64 + 1 * (j 3).val = win0_2.index t (3 : Fin 4) * 64 + 1 * (j 3).val
    rw [e8]

/-- What point t writes back to the second result is block t of the plausibility array. -/
theorem pl_flushed (c : Dev nD) (t : Fin cfg0.N) :
    (dats m 0 c).flushed 3 t = ((cfg0.win 3).blk t).view.read (Elt Ideal) (pl (V m c main_arg0) table) := by
  rw [flushed3]
  unfold out0_3
  rw [View.canon_unit_zero zeros4]
  simp only [View.ld_unit_zero (S := S1x8x1248x7) zeros4, View.ld_unit_zero (S := S6x62) zeros2]
  obtain ⟨-, -, -, -, -, e5, -⟩ := block_indices t
  funext j
  show k0_pay6 (iblk m c 0 t) (iblk m c 1 t) j = pl (V m c main_arg0) table (((cfg0.win 3).blk t).view.emb j)
  rw [second_block_place t j]
  refine (pl_block_entry _ _ j).trans (pl_lane_eq _ _ _ _ (((cfg0.win 2).blk t).view.emb j) (j 1) (j 2) (j 3) ?_
    (fun k => masses_block_at m c t j k) (fun k s => table_block_at m c t k s))
  show (j 3).val = win0_2.index t (3 : Fin 4) * 64 + 1 * (j 3).val
  omega

/-- An entry of the first result array lies in point t's block iff each coordinate lies in the block's range. -/
theorem mem_first_block (t : Fin cfg0.N) (i : S4x384x1248x64.Idx) :
    i ∈ ((cfg0.win 2).blk t).view.set ↔ ∀ a : Fin 4, win0_2.index t a * S1x8x1248x64.size a ≤ (i a).val
      ∧ (i a).val < win0_2.index t a * S1x8x1248x64.size a + S1x8x1248x64.size a := by
  show i ∈ ((View.whole main_v13_0).slice (win0_2.rect t)).set ↔ _
  rw [View.set_slice_whole, Rect.mem_set_unit]
  exact Iff.rfl

/-- The same for the second result array. -/
theorem mem_second_block (t : Fin cfg0.N) (i : S4x384x1248x64.Idx) :
    i ∈ ((cfg0.win 3).blk t).view.set ↔ ∀ a : Fin 4, win0_3.index t a * S1x8x1248x64.size a ≤ (i a).val
      ∧ (i a).val < win0_3.index t a * S1x8x1248x64.size a + S1x8x1248x64.size a := by
  show i ∈ ((View.whole main_v13_1).slice (win0_3.rect t)).set ↔ _
  rw [View.set_slice_whole, Rect.mem_set_unit]
  exact Iff.rfl

/-- Entry (b, r, w, c) lies in the block of the point whose block index is (b, r / 8, 0, 0). -/
theorem covering_point (i : S4x384x1248x64.Idx) : ∃ t : Fin cfg0.N, ∀ a : Fin 4,
    win0_2.index t a * S1x8x1248x64.size a ≤ (i a).val
      ∧ (i a).val < win0_2.index t a * S1x8x1248x64.size a + S1x8x1248x64.size a := by
  have h0 : (i 0).val < 4 := (i 0).isLt
  have h1 : (i 1).val < 384 := (i 1).isLt
  have h2 : (i 2).val < 1248 := (i 2).isLt
  have h3 : (i 3).val < 64 := (i 3).isLt
  obtain ⟨t, ht⟩ := block_onto ⟨(i 0).val, h0⟩ ⟨(i 1).val / 8, by omega⟩
  have q0 : win0_2.index t (0 : Fin 4) = (i 0).val := congrFun ht 0
  have q1 : win0_2.index t (1 : Fin 4) = (i 1).val / 8 := congrFun ht 1
  have q2 : win0_2.index t (2 : Fin 4) = 0 := congrFun ht 2
  have q3 : win0_2.index t (3 : Fin 4) = 0 := congrFun ht 3
  refine ⟨t, fun a => ?_⟩
  match a with
  | ⟨0, _⟩ =>
    show win0_2.index t (0 : Fin 4) * 1 ≤ (i 0).val ∧ (i 0).val < win0_2.index t (0 : Fin 4) * 1 + 1
    omega
  | ⟨1, _⟩ =>
    show win0_2.index t (1 : Fin 4) * 8 ≤ (i 1).val ∧ (i 1).val < win0_2.index t (1 : Fin 4) * 8 + 8
    omega
  | ⟨2, _⟩ =>
    show win0_2.index t (2 : Fin 4) * 1248 ≤ (i 2).val ∧ (i 2).val < win0_2.index t (2 : Fin 4) * 1248 + 1248
    omega
  | ⟨3, _⟩ =>
    show win0_2.index t (3 : Fin 4) * 64 ≤ (i 3).val ∧ (i 3).val < win0_2.index t (3 : Fin 4) * 64 + 64
    omega

/-- After the run the first result array is the belief array of the argument and of the table. -/
theorem bel_final (c : Dev nD) :
    (dats m 0 c).arrAt 2 cfg0.N = bel (m ((c : Thread nD τ).loc main_arg0)) table := by
  rw [← V_main_arg0 m c]
  exact (dats m 0 c).arrAt_eq_of_cover 2 (bel (V m c main_arg0) table) (fun t _ => bel_flushed m c t) fun i => by
    obtain ⟨t, ht⟩ := covering_point i
    exact ⟨t, flush0_2 t, (mem_first_block t i).mpr ht⟩

/-- After the run the second result array is the plausibility array of the argument and of the table. -/
theorem pl_final (c : Dev nD) :
    (dats m 0 c).arrAt 3 cfg0.N = pl (m ((c : Thread nD τ).loc main_arg0)) table := by
  rw [← V_main_arg0 m c]
  exact (dats m 0 c).arrAt_eq_of_cover 3 (pl (V m c main_arg0) table) (fun t _ => pl_flushed m c t) fun i => by
    obtain ⟨t, ht⟩ := covering_point i
    obtain ⟨-, -, -, -, -, -, -, -, e8, -⟩ := block_indices t
    refine ⟨t, flush0_3 t, (mem_second_block t i).mpr ?_⟩
    rw [e8]
    exact ht

/-- The kernel's run: every weakly fair execution ends with the two result arrays at the belief and the plausibility
    arrays of the argument, the argument unchanged. -/
theorem run : θ_run defs (onTc (τ := τ) (main (F := Ideal))) ⟨m, fun _ => 0, ρ⟩ fun r => ∀ c : Dev nD,
      r.2.mem ((c : Thread nD τ).loc main_v13_0) = bel (m ((c : Thread nD τ).loc main_arg0)) table
      ∧ r.2.mem ((c : Thread nD τ).loc main_v13_1) = pl (m ((c : Thread nD τ).loc main_arg0)) table
      ∧ r.2.mem ((c : Thread nD τ).loc main_arg0) = m ((c : Thread nD τ).loc main_arg0) :=
  (θ_run defs _ _).mono (fun r h c => ⟨(h c).1.trans (bel_final m c), (h c).2.1.trans (pl_final m c), (h c).2.2⟩)
    (run_blocks m ρ)

end Cert.KernelIdeal.AsBelief

end
-- ==== Proof.RefBelief.lean ====
/- The reference's two results are the belief and the plausibility arrays of its argument and of the membership table
   it computes: its contraction over the six singleton masses is the subset sum, the two constant columns are the
   lanes 0 and 63, and the slice of the seventh mass spread over the 62 middle lanes is the whole frame's mass. -/
import proofs.«170387_j35656818492190_2_alg».proof.Proof.Gen.ReferenceIdeal.Read
import proofs.«170387_j35656818492190_2_alg».proof.Proof.Belief
import proofs.«170387_j35656818492190_2_alg».proof.Proof.LibConcatThree

noncomputable section

namespace Cert.ReferenceIdeal.AsBelief

open Cert.ReferenceIdeal Cert.ReferenceIdeal.Gen Cert.ReferenceIdeal.Read Idealize.ShloMosaic Idealize.ShloMosaic.ValueIdx
open Cert.Belief Cert.Lib.ConcatThree

/-- The membership table as the reference computes it (62 subsets × 6 singletons). -/
abbrev table : FVec Ideal S62x6 .f32 := val_main_v11 (F := Ideal)

/-- The contraction at pixel (b, h, w) and subset s is the subset sum. -/
theorem contraction_at (x : FVec Ideal S4x384x1248x7 .f32) (b : Fin 4) (h : Fin 384) (w : Fin 1248) (s : Fin 62) :
    val_main_v13 (F := Ideal) x (ix4 b h w s) = subsetMass x table b h w s := by
  rw [val_main_v13_apply]
  unfold subsetMass
  refine Finset.sum_congr rfl fun k _ => ?_
  rw [val_main_v12_apply]
  have e1 : idx_main_v12 (lidx_main_v13 (ix4 b h w s) k) = ix4 b h w (single k) := funext fun a => Fin.ext (by
    match a with | ⟨0, _⟩ => rfl | ⟨1, _⟩ => rfl | ⟨2, _⟩ => rfl | ⟨3, _⟩ => rfl)
  have e2 : ridx_main_v13 (ix4 b h w s) k = ix2 s k := funext fun a => Fin.ext (by
    match a with | ⟨0, _⟩ => rfl | ⟨1, _⟩ => rfl)
  rw [e1, e2]

/-- The spread seventh mass at pixel (b, h, w), any middle lane, is the whole frame's mass. -/
theorem frame_mass_at (x : FVec Ideal S4x384x1248x7 .f32) (b : Fin 4) (h : Fin 384) (w : Fin 1248) (s : Fin 62) :
    val_main_v19 (F := Ideal) x (ix4 b h w s) = x (ix4 b h w whole) := by
  rw [val_main_v19_apply, val_main_v18_apply]
  exact congrArg x (funext fun a => Fin.ext (by
    match a with | ⟨0, _⟩ => rfl | ⟨1, _⟩ => rfl | ⟨2, _⟩ => rfl | ⟨3, _⟩ => rfl))

/-- The first result is the belief array. -/
theorem first_eq (x : FVec Ideal S4x384x1248x7 .f32) : val_main_v17 (F := Ideal) x = bel x table := by
  funext i
  obtain ⟨b, h, w, c, rfl⟩ : ∃ (b : Fin 4) (h : Fin 384) (w : Fin 1248) (c : Fin 64), i = ix4 b h w c :=
    ⟨i 0, i 1, i 2, i 3, eq_ix4 i⟩
  rw [bel_at]
  unfold val_main_v17
  by_cases h0 : c.val = 0
  · rw [dif_pos h0]
    refine (lanes_left (n0 := 4) (n1 := 384) (n2 := 1248) (p := 1) (q := 62) (r := 1) (w := 64) _ _ _ _ b h w c
      (by omega)).trans ?_
    rw [val_main_v15_apply]; rfl
  · rw [dif_neg h0]
    by_cases h1 : c.val < 63
    · rw [dif_pos h1]
      refine (lanes_mid (n0 := 4) (n1 := 384) (n2 := 1248) (p := 1) (q := 62) (r := 1) (w := 64) _ _ _ _ b h w c
        (by omega) (by omega)).trans ?_
      exact contraction_at x b h w _
    · rw [dif_neg h1]
      refine (lanes_right (n0 := 4) (n1 := 384) (n2 := 1248) (p := 1) (q := 62) (r := 1) (w := 64) _ _ _ _ b h w c
        (by omega) (by have := c.isLt; omega)).trans ?_
      rw [val_main_v16_apply]; rfl

/-- The second result is the plausibility array. -/
theorem second_eq (x : FVec Ideal S4x384x1248x7 .f32) : val_main_v21 (F := Ideal) x = pl x table := by
  funext i
  obtain ⟨b, h, w, c, rfl⟩ : ∃ (b : Fin 4) (h : Fin 384) (w : Fin 1248) (c : Fin 64), i = ix4 b h w c :=
    ⟨i 0, i 1, i 2, i 3, eq_ix4 i⟩
  rw [pl_at]
  unfold val_main_v21
  by_cases h0 : c.val = 0
  · rw [dif_pos h0]
    refine (lanes_left (n0 := 4) (n1 := 384) (n2 := 1248) (p := 1) (q := 62) (r := 1) (w := 64) _ _ _ _ b h w c
      (by omega)).trans ?_
    rw [val_main_v15_apply]; rfl
  · rw [dif_neg h0]
    by_cases h1 : c.val < 63
    · rw [dif_pos h1]
      refine (lanes_mid (n0 := 4) (n1 := 384) (n2 := 1248) (p := 1) (q := 62) (r := 1) (w := 64) _ _ _ _ b h w c
        (by omega) (by omega)).trans ?_
      rw [val_main_v20_apply]
      exact congrArg₂ (· + ·) (contraction_at x b h w _) (frame_mass_at x b h w _)
    · rw [dif_neg h1]
      refine (lanes_right (n0 := 4) (n1 := 384) (n2 := 1248) (p := 1) (q := 62) (r := 1) (w := 64) _ _ _ _ b h w c
        (by omega) (by have := c.isLt; omega)).trans ?_
      rw [val_main_v16_apply]; rfl

end Cert.ReferenceIdeal.AsBelief

end
-- ==== Proof.lean ====
/- The kernel computes, per pixel, the belief and the plausibility of every subset of a six-element frame from the
   pixel's seven masses, and the reference computes the same two arrays with one contraction over the whole image.

   Both programs build the same 62 × 6 membership table with integer operations on the host; the kernel transposes it
   and multiplies each block of 8 image rows into it, the reference contracts the whole array against it. At the
   ideal values both results are, lane by lane: 0 in lane 0; in lane s + 1 the sum over the six singletons k of
   (mass k) · (table entry (s, k)) — for the plausibility plus the seventh mass —; 1 in lane 63. The two sums have the
   same terms in the same order, so no law of the extended reals beyond reading both programs index by index is
   needed, and the finiteness precondition is not used.

   The frames of the two kernel programs and the reference's run are the generated ones; the ideal pass rewrote
   nothing, so there is nothing to preserve. -/
import proofs.«170387_j35656818492190_2_alg».proof.Defs
import proofs.«170387_j35656818492190_2_alg».proof.Proof.Gen.Kernel
import proofs.«170387_j35656818492190_2_alg».proof.Proof.Gen.Kernel.Skeleton
import proofs.«170387_j35656818492190_2_alg».proof.Proof.Gen.Kernel.Launch
import proofs.«170387_j35656818492190_2_alg».proof.Proof.Gen.Kernel.Points
import proofs.«170387_j35656818492190_2_alg».proof.Proof.Gen.Kernel.Frame
import proofs.«170387_j35656818492190_2_alg».proof.Proof.Gen.KernelIdeal
import proofs.«170387_j35656818492190_2_alg».proof.Proof.Gen.KernelIdeal.Skeleton
import proofs.«170387_j35656818492190_2_alg».proof.Proof.Gen.KernelIdeal.Launch
import proofs.«170387_j35656818492190_2_alg».proof.Proof.Gen.KernelIdeal.Points
import proofs.«170387_j35656818492190_2_alg».proof.Proof.Gen.KernelIdeal.Frame
import proofs.«170387_j35656818492190_2_alg».proof.Proof.Gen.ReferenceIdeal
import proofs.«170387_j35656818492190_2_alg».proof.Proof.Gen.Pre_finite_inputs
import proofs.«170387_j35656818492190_2_alg».proof.Proof.Gen.KernelIdeal.Value
import proofs.«170387_j35656818492190_2_alg».proof.Proof.Gen.ReferenceIdeal.Run
import proofs.«170387_j35656818492190_2_alg».proof.Proof.Gen.ReferenceIdeal.Read
import proofs.«170387_j35656818492190_2_alg».proof.Proof.KernelArrays
import proofs.«170387_j35656818492190_2_alg».proof.Proof.RefBelief
import Idealize.ShloMosaic.Adequacy
import Idealize.ShloMosaic.Init

noncomputable section

namespace Cert.Proof

open Idealize.ShloMosaic Idealize.ShloMosaic.TcCoe Idealize.SL.Sem Cert.Belief

/-- The two programs compute one membership table: the same integer operations in the same order. -/
theorem one_table : Cert.ReferenceIdeal.AsBelief.table = Cert.KernelIdeal.AsBelief.table := rfl

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2.2) (Cert.ReferenceIdeal.Value.run (F := Ideal) m ρ)

/-- From memories that agree on the masses, the kernel's results and the reference's results are the belief and the
    plausibility arrays of the same masses and the same table. -/
theorem algebraic : Cert.algebraic_KernelIdeal_ReferenceIdeal := by
  intro m ρ m' ρ' _ hagree
  refine ⟨fun c => bel (m ((c : Thread Cert.KernelIdeal.nD Cert.KernelIdeal.τ).loc Cert.KernelIdeal.main_arg0))
      Cert.KernelIdeal.AsBelief.table,
    fun c => pl (m ((c : Thread Cert.KernelIdeal.nD Cert.KernelIdeal.τ).loc Cert.KernelIdeal.main_arg0))
      Cert.KernelIdeal.AsBelief.table,
    Cert.KernelIdeal.AsBelief.run m ρ, ?_⟩
  refine (θ_run Cert.ReferenceIdeal.defs _ _).mono (fun _ h c => ⟨?_, ?_, (h c).2.2⟩)
    (Cert.ReferenceIdeal.Value.run (F := Ideal) m' ρ')
  · refine (h c).1.trans ((Cert.ReferenceIdeal.Read.val_main_v17_eq _).trans
      ((Cert.ReferenceIdeal.AsBelief.first_eq _).trans ?_))
    rw [hagree c, one_table]
  · refine (h c).2.1.trans ((Cert.ReferenceIdeal.Read.val_main_v21_eq _).trans
      ((Cert.ReferenceIdeal.AsBelief.second_eq _).trans ?_))
    rw [hagree c, one_table]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
